-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x729x64 : Shape := ⟨3, ![64, 729, 64]⟩
abbrev S64x729x729 : Shape := ⟨3, ![64, 729, 729]⟩
abbrev S_ : Shape := ⟨0, ![]⟩

class Facts : Prop where
  bcast_S_S64x729x64 : S_.BroadcastsInDim S64x729x64 (![] : Fin 0 → Fin S64x729x64.rank)
  reducesTo_S64x729x64_S_d0_1_2 : S64x729x64.ReducesTo [0, 1, 2] S_
  h_S_ : 0 < S_.numel

variable [Facts]

def fn {F : FTy → Type} [FloatOps F] (main_arg0 : FVec F S64x729x64 .f32) (main_arg1 : FVec F S64x729x64 .f32) (main_arg2 : FVec F S64x729x64 .f32) (main_arg3 : IVec S64x729x729 32) : IVec S_ 1 :=
  let main_v0 : FVec F S64x729x64 .f32 := Host.absf main_arg0
  let main_cst : FVec F S_ .f32 := constant S_ .f32 0x7F800000#32
  let main_v1 : FVec F S64x729x64 .f32 := broadcastInDim S64x729x64 ![] bcast_S_S64x729x64 main_cst
  let main_v2 : IVec S64x729x64 1 := cmpf .olt main_v0 main_v1
  let main_c : IVec S_ 1 := constantI S_ 1 1#1
  let main_v3 : IVec S_ 1 := (fun x v => Host.reduce IntOp.andi x v reducesTo_S64x729x64_S_d0_1_2 h_S_) main_v2 main_c
  let main_v4 : FVec F S64x729x64 .f32 := Host.absf main_arg1
  let main_cst_0 : FVec F S_ .f32 := constant S_ .f32 0x7F800000#32
  let main_v5 : FVec F S64x729x64 .f32 := broadcastInDim S64x729x64 ![] bcast_S_S64x729x64 main_cst_0
  let main_v6 : IVec S64x729x64 1 := cmpf .olt main_v4 main_v5
  let main_c_1 : IVec S_ 1 := constantI S_ 1 1#1
  let main_v7 : IVec S_ 1 := (fun x v => Host.reduce IntOp.andi x v reducesTo_S64x729x64_S_d0_1_2 h_S_) main_v6 main_c_1
  let main_v8 : IVec S_ 1 := andi main_v3 main_v7
  let main_v9 : FVec F S64x729x64 .f32 := Host.absf main_arg2
  let main_cst_2 : FVec F S_ .f32 := constant S_ .f32 0x7F800000#32
  let main_v10 : FVec F S64x729x64 .f32 := broadcastInDim S64x729x64 ![] bcast_S_S64x729x64 main_cst_2
  let main_v11 : IVec S64x729x64 1 := cmpf .olt main_v9 main_v10
  let main_c_3 : IVec S_ 1 := constantI S_ 1 1#1
  let main_v12 : IVec S_ 1 := (fun x v => Host.reduce IntOp.andi x v reducesTo_S64x729x64_S_d0_1_2 h_S_) main_v11 main_c_3
  let main_v13 : IVec S_ 1 := andi main_v8 main_v12
  main_v13
-- ==== Kernel.lean ====
abbrev S64x729x64 : Shape := ⟨3, ![64, 729, 64]⟩
abbrev S64x729x729 : Shape := ⟨3, ![64, 729, 729]⟩
abbrev S2x729x64 : Shape := ⟨3, ![2, 729, 64]⟩
abbrev S2x729x729 : Shape := ⟨3, ![2, 729, 729]⟩
abbrev S1x729x64 : Shape := ⟨3, ![1, 729, 64]⟩
abbrev S729x64 : Shape := ⟨2, ![729, 64]⟩
abbrev S1x729x729 : Shape := ⟨3, ![1, 729, 729]⟩
abbrev S729x729 : Shape := ⟨2, ![729, 729]⟩

abbrev nBuf : Space → Nat
  | .hbm => 6
  | .vmem => 12
  | .smem => 0
  | _ => 0

abbrev bufTy : (tb : Table) → Fin (tcTables nBuf tb) → BufTy
  | .hbm, ⟨0, _⟩ => ⟨S64x729x64, .f32⟩
  | .hbm, ⟨1, _⟩ => ⟨S64x729x64, .f32⟩
  | .hbm, ⟨2, _⟩ => ⟨S64x729x64, .f32⟩
  | .hbm, ⟨3, _⟩ => ⟨S64x729x729, .i32⟩
  | .hbm, ⟨4, _⟩ => ⟨S64x729x64, .f32⟩
  | .hbm, ⟨5, _⟩ => ⟨S64x729x729, .f32⟩
  | .local _ .vmem, ⟨0, _⟩ => ⟨S2x729x64, .f32⟩
  | .local _ .vmem, ⟨1, _⟩ => ⟨S2x729x64, .f32⟩
  | .local _ .vmem, ⟨2, _⟩ => ⟨S2x729x64, .f32⟩
  | .local _ .vmem, ⟨3, _⟩ => ⟨S2x729x64, .f32⟩
  | .local _ .vmem, ⟨4, _⟩ => ⟨S2x729x64, .f32⟩
  | .local _ .vmem, ⟨5, _⟩ => ⟨S2x729x64, .f32⟩
  | .local _ .vmem, ⟨6, _⟩ => ⟨S2x729x729, .i32⟩
  | .local _ .vmem, ⟨7, _⟩ => ⟨S2x729x729, .i32⟩
  | .local _ .vmem, ⟨8, _⟩ => ⟨S2x729x64, .f32⟩
  | .local _ .vmem, ⟨9, _⟩ => ⟨S2x729x64, .f32⟩
  | .local _ .vmem, ⟨10, _⟩ => ⟨S2x729x729, .f32⟩
  | .local _ .vmem, ⟨11, _⟩ => ⟨S2x729x729, .f32⟩
  | _, _ => ⟨S64x729x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v1 : Index := Scalar.indexCast arg7
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v15 : Index := Scalar.indexCast arg7
  let c0_6 : Index := 0#32
  let c0_7 : Index := 0#32
  ![v15.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x729x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x729x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x729x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x729x729 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x729x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x729x729 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  h_S1x729x64 : 0 < S1x729x64.numel
  shapeCasts_S1x729x64_S729x64 : S1x729x64.ShapeCasts S729x64
  bitsLt_bf16_f32 : FTy.bits .bf16 < FTy.bits .f32
  h_S1x729x729 : 0 < S1x729x729.numel
  shapeCasts_S1x729x729_S729x729 : S1x729x729.ShapeCasts S729x729
  iota_S729x729_d0_w32 : S729x729.Iotas .tc 32 [0]
  iota_S729x729_d1_w32 : S729x729.Iotas .tc 32 [1]
  shapeCasts_S729x729_S1x729x729 : S729x729.ShapeCasts S1x729x729
  shapeCasts_S729x64_S1x729x64 : S729x64.ShapeCasts S1x729x64
  dot_S729x64_S729x64_S729x729_1_1_0_0_n_n_wf : DotDims.WF S729x64 S729x64 S729x729 [1] [1] [0] [0] [] []
  dot_S729x729_S729x64_S729x64_1_0_0_1_n_n_wf : DotDims.WF S729x729 S729x64 S729x64 [1] [0] [0] [1] [] []
  hrank0 : 0 < grid0.rank
  k0_t1_ok : k0_t1_loop.OK
  k0_off1_inb : ∀ k0_t1 : Fin k0_t1_loop.trips, ∀ a, (k0_off1 k0_t1) a + S1x729x64.size a ≤ S2x729x64.size a
  k0_off2_inb : ∀ k0_t1 : Fin k0_t1_loop.trips, ∀ a, (k0_off2 k0_t1) a + S1x729x729.size a ≤ S2x729x729.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x729x64.size a ≤ S64x729x64.size a
  hwx0_0 : ∀ i : grid0.Coords, EltTy.bits .f32 = 32 ∨ (Rect.block (s := S64x729x64) S2x729x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x729x64.size a ≤ S64x729x64.size a
  hwx0_1 : ∀ i : grid0.Coords, EltTy.bits .f32 = 32 ∨ (Rect.block (s := S64x729x64) S2x729x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x729x64.size a ≤ S64x729x64.size a
  hwx0_2 : ∀ i : grid0.Coords, EltTy.bits .f32 = 32 ∨ (Rect.block (s := S64x729x64) S2x729x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x729x729.size a ≤ S64x729x729.size a
  hwx0_3 : ∀ i : grid0.Coords, EltTy.bits .i32 = 32 ∨ (Rect.block (s := S64x729x729) S2x729x729.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x729x64.size a ≤ S64x729x64.size a
  hwx0_4 : ∀ i : grid0.Coords, EltTy.bits .f32 = 32 ∨ (Rect.block (s := S64x729x64) S2x729x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x729x729.size a ≤ S64x729x729.size a
  hwx0_5 : ∀ i : grid0.Coords, EltTy.bits .f32 = 32 ∨ (Rect.block (s := S64x729x729) S2x729x729.size (cc0_transform_5 i) (hinb0_5 i)).WholeWords (EltTy.packing .f32)

variable [Facts₀]

def dot_S729x64_S729x64_S729x729_1_1_0_0_n_n : DotDims S729x64 S729x64 S729x729 where
  lhsContracting := [1]
  rhsContracting := [1]
  lhsNonContracting := [0]
  rhsNonContracting := [0]
  lhsBatch := []
  rhsBatch := []
  wf := dot_S729x64_S729x64_S729x729_1_1_0_0_n_n_wf
def dot_S729x729_S729x64_S729x64_1_0_0_1_n_n : DotDims S729x729 S729x64 S729x64 where
  lhsContracting := [1]
  rhsContracting := [0]
  lhsNonContracting := [0]
  rhsNonContracting := [1]
  lhsBatch := []
  rhsBatch := []
  wf := dot_S729x729_S729x64_S729x64_1_0_0_1_n_n_wf

abbrev win0_0 : Pipeline.Window sig grid0 :=
  Pipeline.Window.ofSpec (Memref.whole main_arg0) S2x729x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x729x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x729x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x729x729.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2x729x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2x729x729.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x729x64 : Shape := ⟨3, ![64, 729, 64]⟩
abbrev S64x729x729 : Shape := ⟨3, ![64, 729, 729]⟩
abbrev S_ : Shape := ⟨0, ![]⟩
abbrev S729x729 : Shape := ⟨2, ![729, 729]⟩
abbrev S1x729x729 : Shape := ⟨3, ![1, 729, 729]⟩

abbrev nBuf : Space → Nat
  | .hbm => 29
  | .vmem => 0
  | .smem => 0
  | _ => 0

abbrev bufTy : (tb : Table) → Fin (tcTables nBuf tb) → BufTy
  | .hbm, ⟨0, _⟩ => ⟨S64x729x64, .f32⟩
  | .hbm, ⟨1, _⟩ => ⟨S64x729x64, .f32⟩
  | .hbm, ⟨2, _⟩ => ⟨S64x729x64, .f32⟩
  | .hbm, ⟨3, _⟩ => ⟨S64x729x729, .i32⟩
  | .hbm, ⟨4, _⟩ => ⟨S64x729x729, .f32⟩
  | .hbm, ⟨5, _⟩ => ⟨S_, .f32⟩
  | .hbm, ⟨6, _⟩ => ⟨S64x729x729, .f32⟩
  | .hbm, ⟨7, _⟩ => ⟨S64x729x729, .f32⟩
  | .hbm, ⟨8, _⟩ => ⟨S_, .i32⟩
  | .hbm, ⟨9, _⟩ => ⟨S64x729x729, .i32⟩
  | .hbm, ⟨10, _⟩ => ⟨S64x729x729, .i1⟩
  | .hbm, ⟨11, _⟩ => ⟨S_, .f32⟩
  | .hbm, ⟨12, _⟩ => ⟨S64x729x729, .f32⟩
  | .hbm, ⟨13, _⟩ => ⟨S64x729x729, .f32⟩
  | .hbm, ⟨14, _⟩ => ⟨S64x729x729, .f32⟩
  | .hbm, ⟨15, _⟩ => ⟨S729x729, .i32⟩
  | .hbm, ⟨16, _⟩ => ⟨S729x729, .i32⟩
  | .hbm, ⟨17, _⟩ => ⟨S_, .i32⟩
  | .hbm, ⟨18, _⟩ => ⟨S729x729, .i32⟩
  | .hbm, ⟨19, _⟩ => ⟨S729x729, .i32⟩
  | .hbm, ⟨20, _⟩ => ⟨S729x729, .i1⟩
  | .hbm, ⟨21, _⟩ => ⟨S729x729, .f32⟩
  | .hbm, ⟨22, _⟩ => ⟨S_, .f32⟩
  | .hbm, ⟨23, _⟩ => ⟨S729x729, .f32⟩
  | .hbm, ⟨24, _⟩ => ⟨S729x729, .f32⟩
  | .hbm, ⟨25, _⟩ => ⟨S1x729x729, .f32⟩
  | .hbm, ⟨26, _⟩ => ⟨S64x729x729, .f32⟩
  | .hbm, ⟨27, _⟩ => ⟨S64x729x729, .f32⟩
  | .hbm, ⟨28, _⟩ => ⟨S64x729x64, .f32⟩
  | _, _ => ⟨S64x729x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S64x729x729 : S_.BroadcastsInDim S64x729x729 (![] : Fin 0 → Fin S64x729x729.rank)
  bcast_S_S729x729 : S_.BroadcastsInDim S729x729 (![] : Fin 0 → Fin S729x729.rank)
  bcast_S729x729_S1x729x729_1_2 : S729x729.BroadcastsInDim S1x729x729 (![1, 2] : Fin 2 → Fin S1x729x729.rank)
  bcast_S1x729x729_S64x729x729_0_1_2 : S1x729x729.BroadcastsInDim S64x729x729 (![0, 1, 2] : Fin 3 → Fin S64x729x729.rank)
  dot_S64x729x64_S64x729x64_S64x729x729_2_2_1_1_0_0_wf : DotDims.WF S64x729x64 S64x729x64 S64x729x729 [2] [2] [1] [1] [0] [0]
  dot_S64x729x729_S64x729x64_S64x729x64_2_1_1_2_0_0_wf : DotDims.WF S64x729x729 S64x729x64 S64x729x64 [2] [1] [1] [2] [0] [0]

variable [Facts₀]

def dot_S64x729x64_S64x729x64_S64x729x729_2_2_1_1_0_0 : DotDims S64x729x64 S64x729x64 S64x729x729 where
  lhsContracting := [2]
  rhsContracting := [2]
  lhsNonContracting := [1]
  rhsNonContracting := [1]
  lhsBatch := [0]
  rhsBatch := [0]
  wf := dot_S64x729x64_S64x729x64_S64x729x729_2_2_1_1_0_0_wf
def dot_S64x729x729_S64x729x64_S64x729x64_2_1_1_2_0_0 : DotDims S64x729x729 S64x729x64 S64x729x64 where
  lhsContracting := [2]
  rhsContracting := [1]
  lhsNonContracting := [1]
  rhsNonContracting := [2]
  lhsBatch := [0]
  rhsBatch := [0]
  wf := dot_S64x729x729_S64x729x64_S64x729x64_2_1_1_2_0_0_wf

class Facts : Prop extends Facts₀ where

variable [Facts]
-- ==== Proof.Weights.lean ====
/-
  Tanh attention with a mask and a zeroed diagonal, over the extended reals: what both programs compute, stated
  once, and the algebra between the two ways they spell it.

  For one batch, the weight of query row `q` on key row `k` is `0` when `q = k`, and otherwise the hyperbolic
  tangent of the score — the fill value where the mask word is `0`, else the inner product of the two rows scaled
  by one eighth (the rows have 64 entries, and `1/√64 = 1/8`). The second result mixes the value rows with these
  weights.

  One program scales each query entry by `1/8` before the inner product and overwrites the diagonal with `0`; the
  other divides the finished inner product by `8` and multiplies by `1 - [q = k]`. The two agree on ALL extended
  reals, infinities included: division by the real `8` is multiplication by `1/8`, a nonnegative finite factor
  distributes over any sum of extended reals, and a product with `0` is `0` whatever the other factor is.
-/
import Idealize.ShloMosaic.PureOps.Ideal
import Idealize.ShloMosaic.PureOps.Ideal.Laws
import Idealize.ShloMosaic.Lib.ValueIdx

noncomputable section

namespace MaskedTanhAttention

open Idealize.ShloMosaic Idealize.ShloMosaic.ValueIdx

/-- The score written where the mask word is `0`: the single-precision pattern of `-10⁹`. Both programs spell this
    same word, so its value is never needed. -/
abbrev fill : EReal := Ideal.ofBits .f32 0xCE6E6B28#32

/-- The scale applied to a query entry: the single-precision pattern of `0.125`. -/
abbrev eighth : EReal := Ideal.ofBits .f32 0x3E000000#32

/-- The single-precision pattern of `8.0`, the divisor on the other side. -/
abbrev eight : EReal := Ideal.ofBits .f32 0x41000000#32

/-- The single-precision pattern of `1.0`. -/
abbrev one : EReal := Ideal.ofBits .f32 0x3F800000#32

theorem eighth_eq : eighth = ((1 / 8 : ℝ) : EReal) := by
  simp [eighth, Ideal.ofBits, Ideal.ieee, -EReal.coe_mul]; norm_num

theorem eight_eq : eight = ((8 : ℝ) : EReal) := by
  simp [eight, Ideal.ofBits, Ideal.ieee, -EReal.coe_mul]; norm_num

theorem one_eq : one = 1 := by
  simp [one, Ideal.ofBits, Ideal.ieee, -EReal.coe_mul]; norm_num

/-- THE WEIGHT of query row `q` on key row `k` within one batch, whose query rows are `Qb`, key rows `Kb` and mask
    words `Mb`: `0` on the diagonal, else `tanh` of the masked, scaled inner product. The two comparisons are kept as
    the one-bit words the programs compute (row and column numbers compared as 32-bit words; the mask word
    compared with `0`). -/
def weight (Qb Kb : Fin 729 → Fin 64 → EReal) (Mb : Fin 729 → Fin 729 → BitVec 32) (q k : Fin 729) : EReal :=
  Scalar.select (IntOp.cmpi .eq (BitVec.ofNat 32 q.val) (BitVec.ofNat 32 k.val)) (0 : EReal)
    (Ideal.tanh (Scalar.select (IntOp.cmpi .eq (Mb q k) 0#32) fill (∑ d : Fin 64, Qb q d * eighth * Kb k d)))

/-- The arrays: 64 batches of 729 rows of 64 entries; 64 batches of 729 × 729 mask words or weights. -/
abbrev Rows := (⟨3, ![64, 729, 64]⟩ : Shape).Idx → EReal
abbrev Words := (⟨3, ![64, 729, 729]⟩ : Shape).Idx → BitVec 32
abbrev Squares := (⟨3, ![64, 729, 729]⟩ : Shape).Idx → EReal

/-- THE WEIGHTS, every batch: entry `(b, q, k)` is the weight of row `q` on row `k` in batch `b`. -/
def weights (Q K : Rows) (M : Words) : Squares := fun j =>
  weight (fun q d => Q (ix3 (j 0) q d)) (fun k d => K (ix3 (j 0) k d)) (fun q k => M (ix3 (j 0) q k)) (j 1) (j 2)

/-- THE MIXED VALUES, every batch: entry `(b, q, d)` is the sum over key rows `k` of the weight of `q` on `k` times
    entry `d` of value row `k`. -/
def mixed (Q K V : Rows) (M : Words) : Rows := fun j =>
  ∑ k : Fin 729, weight (fun q d => Q (ix3 (j 0) q d)) (fun k d => K (ix3 (j 0) k d)) (fun q k => M (ix3 (j 0) q k)) (j 1) k
    * V (ix3 (j 0) k (j 2))

/-! ## The algebra between the two spellings -/

/-- A nonnegative real factor moves inside a finite sum of extended reals (no finiteness of the terms needed:
    `c · (⊤ + ⊥) = c · ⊥ = c · ⊤ + c · ⊥` for `c ≥ 0`). -/
theorem sum_mul_nonneg_real {ι : Type*} (s : Finset ι) (f : ι → EReal) {c : ℝ} (hc : 0 ≤ c) :
    (∑ d ∈ s, f d) * (c : EReal) = ∑ d ∈ s, f d * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Dividing an inner product by `8` is scaling each left factor by one eighth. -/
theorem div_eight_eq_scaled (a b : Fin 64 → EReal) :
    Ideal.div (∑ d : Fin 64, a d * b d) eight = ∑ d : Fin 64, a d * eighth * b d := by
  rw [eight_eq, Ideal.div_coe (by norm_num : (8 : ℝ) ≠ 0), eighth_eq,
    sum_mul_nonneg_real _ _ (by norm_num : (0 : ℝ) ≤ 1 / 8)]
  exact Finset.sum_congr rfl fun d _ => by rw [mul_assoc, mul_assoc, mul_comm (b d)]

/-- The other spelling of the weight — the inner product divided by `8`, the diagonal removed by the factor
    `1 - [q = k]` with the row number first increased by the word `0` — is the weight. -/
theorem weight_of_quotient_form (Qb Kb : Fin 729 → Fin 64 → EReal) (Mb : Fin 729 → Fin 729 → BitVec 32) (q k : Fin 729) :
    Ideal.tanh (Scalar.select (IntOp.cmpi .eq (Mb q k) 0#32) fill (Ideal.div (∑ d : Fin 64, Qb q d * Kb k d) eight))
        * (one - (((IntOp.cmpi .eq (IntOp.addi (BitVec.ofNat 32 q.val) 0#32) (BitVec.ofNat 32 k.val)).toNat : ℝ) : EReal))
      = weight Qb Kb Mb q k := by
  unfold weight
  rw [div_eight_eq_scaled, one_eq, show IntOp.addi (BitVec.ofNat 32 q.val) 0#32 = BitVec.ofNat 32 q.val from BitVec.add_zero _]
  by_cases h : IntOp.cmpi .eq (BitVec.ofNat 32 q.val) (BitVec.ofNat 32 k.val) = 1#1
  · have e : (1 : EReal) - (((1#1 : BitVec 1).toNat : ℝ) : EReal) = 0 := by
      rw [show ((1#1 : BitVec 1).toNat : ℝ) = 1 by simp, ← EReal.coe_one, ← EReal.coe_sub, sub_self, EReal.coe_zero]
    rw [h, select_one, e, mul_zero]
  · have e : (1 : EReal) - (((0#1 : BitVec 1).toNat : ℝ) : EReal) = 1 := by
      rw [show ((0#1 : BitVec 1).toNat : ℝ) = 0 by simp, EReal.coe_zero, sub_zero]
    rw [eq_zero_of_ne_one h, select_zero, e, mul_one]

end MaskedTanhAttention

end
-- ==== Proof.Tile.lean ====
/-
  One batch inside the kernel: the values the body computes from the three row tiles and the mask tile it loads,
  read entry by entry.

  The body holds, for the batch it is on, a `[1, 729, 64]` tile of query rows, one of key rows, one of value rows
  and a `[1, 729, 729]` tile of mask words. From them it forms the `[729, 729]` tile of weights — entry `(q, k)` is
  the weight of query row `q` on key row `k` — which it stores as a `[1, 729, 729]` tile, and the `[729, 64]` tile of
  mixed values — entry `(q, d)` is the sum over `k` of weight `(q, k)` times value entry `(k, d)` — stored as
  `[1, 729, 64]`. Narrowing to half precision is the identity on extended reals, a matrix product into a zero
  accumulator is the plain sum over the contracted axis, and the unit leading axis is dropped and restored by
  shape casts.
-/
import proofs.«105056_j40767829574593_2_alg».proof.Proof.Gen.KernelIdeal.Skeleton
import proofs.«105056_j40767829574593_2_alg».proof.Proof.Weights
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx MaskedTanhAttention

/-! ## The two matrix products as sums -/

/-- On the axes that are not contracted, an operand's index is the output's: for the rows-against-rows product the
    left operand's row is the output's row and the right operand's row is the output's column; for the ordinary
    product the left operand's row is the output's row and the right operand's column is the output's column. -/
theorem rr_lhs_row (j : S729x729.Idx) (kk : dot_S729x64_S729x64_S729x729_1_1_0_0_n_n.contr.Idx) : (dot_S729x64_S729x64_S729x729_1_1_0_0_n_n.lhsIdx j kk 0).val = (j 0).val := by
  unfold DotDims.lhsIdx
  rw [dif_neg (show ¬(0 : Fin S729x64.rank) ∈ dot_S729x64_S729x64_S729x729_1_1_0_0_n_n.lhsBatch by decide),
    dif_pos (show (0 : Fin S729x64.rank) ∈ dot_S729x64_S729x64_S729x729_1_1_0_0_n_n.lhsNonContracting by decide)]
  rfl
theorem rr_rhs_row (j : S729x729.Idx) (kk : dot_S729x64_S729x64_S729x729_1_1_0_0_n_n.contr.Idx) : (dot_S729x64_S729x64_S729x729_1_1_0_0_n_n.rhsIdx j kk 0).val = (j 1).val := by
  unfold DotDims.rhsIdx
  rw [dif_neg (show ¬(0 : Fin S729x64.rank) ∈ dot_S729x64_S729x64_S729x729_1_1_0_0_n_n.rhsBatch by decide),
    dif_pos (show (0 : Fin S729x64.rank) ∈ dot_S729x64_S729x64_S729x729_1_1_0_0_n_n.rhsNonContracting by decide)]
  rfl
theorem rc_lhs_row (j : S729x64.Idx) (kk : dot_S729x729_S729x64_S729x64_1_0_0_1_n_n.contr.Idx) : (dot_S729x729_S729x64_S729x64_1_0_0_1_n_n.lhsIdx j kk 0).val = (j 0).val := by
  unfold DotDims.lhsIdx
  rw [dif_neg (show ¬(0 : Fin S729x729.rank) ∈ dot_S729x729_S729x64_S729x64_1_0_0_1_n_n.lhsBatch by decide),
    dif_pos (show (0 : Fin S729x729.rank) ∈ dot_S729x729_S729x64_S729x64_1_0_0_1_n_n.lhsNonContracting by decide)]
  rfl
theorem rc_rhs_col (j : S729x64.Idx) (kk : dot_S729x729_S729x64_S729x64_1_0_0_1_n_n.contr.Idx) : (dot_S729x729_S729x64_S729x64_1_0_0_1_n_n.rhsIdx j kk 1).val = (j 1).val := by
  unfold DotDims.rhsIdx
  rw [dif_neg (show ¬(1 : Fin S729x64.rank) ∈ dot_S729x729_S729x64_S729x64_1_0_0_1_n_n.rhsBatch by decide),
    dif_pos (show (1 : Fin S729x64.rank) ∈ dot_S729x729_S729x64_S729x64_1_0_0_1_n_n.rhsNonContracting by decide)]
  rfl

/-- Rows against rows: entry `(q, k)` of the product that contracts the second axis of both operands is the inner
    product of row `q` of the left operand with row `k` of the right one. -/
theorem rows_dot_rows (l r : FVec Ideal S729x64 .bf16) (q k : Fin 729) :
    matmul dot_S729x64_S729x64_S729x729_1_1_0_0_n_n none l r (constant S729x729 .f32 0x00000000#32) (ix2 q k)
      = ∑ d : Fin 64, l (ix2 q d) * r (ix2 k d) := by
  simp only [matmul]
  rw [Ideal.matmul_constant_zero_apply, ← Equiv.sum_comp (contrEquiv1 dot_S729x64_S729x64_S729x729_1_1_0_0_n_n 64 rfl rfl).symm]
  refine Finset.sum_congr rfl fun d _ => ?_
  have hd := contrEquiv1_symm_val dot_S729x64_S729x64_S729x729_1_1_0_0_n_n 64 rfl rfl d
  have el : dot_S729x64_S729x64_S729x729_1_1_0_0_n_n.lhsIdx (ix2 q k) ((contrEquiv1 dot_S729x64_S729x64_S729x729_1_1_0_0_n_n 64 rfl rfl).symm d) = ix2 q d :=
    funext fun a => Fin.ext (by
      match a with
      | ⟨0, _⟩ => exact rr_lhs_row _ _
      | ⟨1, _⟩ => exact (dot_S729x64_S729x64_S729x729_1_1_0_0_n_n.lhsIdx_val_of_single rfl _ _).trans hd)
  have er : dot_S729x64_S729x64_S729x729_1_1_0_0_n_n.rhsIdx (ix2 q k) ((contrEquiv1 dot_S729x64_S729x64_S729x729_1_1_0_0_n_n 64 rfl rfl).symm d) = ix2 k d :=
    funext fun a => Fin.ext (by
      match a with
      | ⟨0, _⟩ => exact rr_rhs_row _ _
      | ⟨1, _⟩ => exact (dot_S729x64_S729x64_S729x729_1_1_0_0_n_n.rhsIdx_val_of_single rfl _ _).trans hd)
  rw [el, er]

/-- Rows against columns: entry `(q, d)` of the ordinary matrix product is the sum over `k` of entry `(q, k)` of
    the left operand times entry `(k, d)` of the right one. -/
theorem rows_dot_cols (l : FVec Ideal S729x729 .bf16) (r : FVec Ideal S729x64 .bf16) (q : Fin 729) (d : Fin 64) :
    matmul dot_S729x729_S729x64_S729x64_1_0_0_1_n_n none l r (constant S729x64 .f32 0x00000000#32) (ix2 q d)
      = ∑ k : Fin 729, l (ix2 q k) * r (ix2 k d) := by
  simp only [matmul]
  rw [Ideal.matmul_constant_zero_apply, ← Equiv.sum_comp (contrEquiv1 dot_S729x729_S729x64_S729x64_1_0_0_1_n_n 729 rfl rfl).symm]
  refine Finset.sum_congr rfl fun k _ => ?_
  have hk := contrEquiv1_symm_val dot_S729x729_S729x64_S729x64_1_0_0_1_n_n 729 rfl rfl k
  have el : dot_S729x729_S729x64_S729x64_1_0_0_1_n_n.lhsIdx (ix2 q d) ((contrEquiv1 dot_S729x729_S729x64_S729x64_1_0_0_1_n_n 729 rfl rfl).symm k) = ix2 q k :=
    funext fun a => Fin.ext (by
      match a with
      | ⟨0, _⟩ => exact rc_lhs_row _ _
      | ⟨1, _⟩ => exact (dot_S729x729_S729x64_S729x64_1_0_0_1_n_n.lhsIdx_val_of_single rfl _ _).trans hk)
  have er : dot_S729x729_S729x64_S729x64_1_0_0_1_n_n.rhsIdx (ix2 q d) ((contrEquiv1 dot_S729x729_S729x64_S729x64_1_0_0_1_n_n 729 rfl rfl).symm k) = ix2 k d :=
    funext fun a => Fin.ext (by
      match a with
      | ⟨0, _⟩ => exact (dot_S729x729_S729x64_S729x64_1_0_0_1_n_n.rhsIdx_val_of_single rfl _ _).trans hk
      | ⟨1, _⟩ => exact rc_rhs_col _ _)
  rw [el, er]

/-! ## The tile of weights and the tile of mixed values -/

/-- Entry `(q, k)` of the weight tile is the weight of query row `q` on key row `k`, the rows and mask words read
    off the loaded tiles at leading coordinate `0`. -/
theorem weight_tile_apply (v2 v8 : Vec Ideal S1x729x64 .f32) (v16 : Vec Ideal S1x729x729 .i32) (q k : Fin 729) :
    k0_pay1 (F := Ideal) v2 v8 v16 (ix2 q k)
      = weight (fun q d => v2 (ix3 (0 : Fin 1) q d)) (fun k d => v8 (ix3 (0 : Fin 1) k d))
          (fun q k => v16 (ix3 (0 : Fin 1) q k)) q k := by
  have hi0 : iota .tc S729x729 32 [0] iota_S729x729_d0_w32 (ix2 q k) = BitVec.ofNat 32 q.val :=
    iota_single_apply _ _ _ _ _ _
  have hi1 : iota .tc S729x729 32 [1] iota_S729x729_d1_w32 (ix2 q k) = BitVec.ofNat 32 k.val :=
    iota_single_apply _ _ _ _ _ _
  have hm : shapeCast S729x729 v16 shapeCasts_S1x729x729_S729x729 (ix2 q k) = v16 (ix3 (0 : Fin 1) q k) :=
    shapeCast_1ab_ab_apply v16 _ q k
  have hs : matmul dot_S729x64_S729x64_S729x729_1_1_0_0_n_n none
        (truncf .bf16 (mulf (shapeCast S729x64 v2 shapeCasts_S1x729x64_S729x64)
          (broadcast S729x64 (Scalar.ofBits (F := Ideal) .f32 0x3E000000#32))) bitsLt_bf16_f32)
        (truncf .bf16 (shapeCast S729x64 v8 shapeCasts_S1x729x64_S729x64) bitsLt_bf16_f32)
        (constant S729x729 .f32 0x00000000#32) (ix2 q k)
      = ∑ d : Fin 64, v2 (ix3 (0 : Fin 1) q d) * eighth * v8 (ix3 (0 : Fin 1) k d) := by
    rw [rows_dot_rows]
    refine Finset.sum_congr rfl fun d _ => ?_
    show (shapeCast S729x64 v2 shapeCasts_S1x729x64_S729x64 (ix2 q d) * eighth)
        * shapeCast S729x64 v8 shapeCasts_S1x729x64_S729x64 (ix2 k d) = _
    rw [shapeCast_1ab_ab_apply, shapeCast_1ab_ab_apply]
  unfold k0_pay1 weight
  show Scalar.select (IntOp.cmpi .eq (iota .tc S729x729 32 [0] iota_S729x729_d0_w32 (ix2 q k))
        (iota .tc S729x729 32 [1] iota_S729x729_d1_w32 (ix2 q k))) (Ideal.ofBits .f32 0x00000000#32)
      (Ideal.tanh (Scalar.select (IntOp.cmpi .eq (shapeCast S729x729 v16 shapeCasts_S1x729x729_S729x729 (ix2 q k)) 0#32)
        fill (matmul dot_S729x64_S729x64_S729x729_1_1_0_0_n_n none
          (truncf .bf16 (mulf (shapeCast S729x64 v2 shapeCasts_S1x729x64_S729x64)
            (broadcast S729x64 (Scalar.ofBits (F := Ideal) .f32 0x3E000000#32))) bitsLt_bf16_f32)
          (truncf .bf16 (shapeCast S729x64 v8 shapeCasts_S1x729x64_S729x64) bitsLt_bf16_f32)
          (constant S729x729 .f32 0x00000000#32) (ix2 q k)))) = _
  rw [hi0, hi1, hm, hs, Ideal.ofBits_zero_f32]

/-- The stored weight tile: the same entries behind a unit leading axis. -/
theorem stored_weight_tile_apply (v2 v8 : Vec Ideal S1x729x64 .f32) (v16 : Vec Ideal S1x729x729 .i32)
    (u : Fin 1) (q k : Fin 729) :
    k0_pay2 (F := Ideal) v2 v8 v16 (ix3 u q k) = k0_pay1 (F := Ideal) v2 v8 v16 (ix2 q k) := by
  unfold k0_pay2
  exact shapeCast_ab_1ab_apply _ _ u q k

/-- The stored tile of mixed values: entry `(q, d)` sums, over the key rows `k`, the weight tile's entry `(q, k)`
    times entry `d` of value row `k`. -/
theorem stored_mixed_tile_apply (v2 v8 v12 : Vec Ideal S1x729x64 .f32) (v16 : Vec Ideal S1x729x729 .i32)
    (u : Fin 1) (q : Fin 729) (d : Fin 64) :
    k0_pay3 (F := Ideal) v2 v8 v12 v16 (ix3 u q d)
      = ∑ k : Fin 729, k0_pay1 (F := Ideal) v2 v8 v16 (ix2 q k) * v12 (ix3 (0 : Fin 1) k d) := by
  unfold k0_pay3
  refine (shapeCast_ab_1ab_apply _ _ u q d).trans ?_
  rw [rows_dot_cols]
  refine Finset.sum_congr rfl fun k _ => ?_
  show k0_pay1 (F := Ideal) v2 v8 v16 (ix2 q k) * shapeCast S729x64 v12 shapeCasts_S1x729x64_S729x64 (ix2 k d) = _
  rw [shapeCast_1ab_ab_apply]

end Cert.KernelIdeal.Tile

end
-- ==== Proof.Blocks.lean ====
/-
  One grid point of the kernel: what its body leaves in the two output blocks, as functions of the four input
  blocks.

  A block holds two batches. The body visits them one after the other; on batch `κ` it loads slab `κ` (a
  `[1, 729, ·]` tile at offsets `(κ, 0, 0)`) of each input block, computes that batch's weight tile and mixed-value
  tile, and stores them into slab `κ` of the two output blocks. The two slabs tile each output block, and on each of
  them the stored tile is ONE function of the block index — the weight, or the mixed value, of the batch the index
  names — so each output block as a whole is that function.
-/
import proofs.«105056_j40767829574593_2_alg».proof.Proof.Gen.KernelIdeal.Frame
import proofs.«105056_j40767829574593_2_alg».proof.Proof.Tile
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx MaskedTanhAttention Cert.KernelIdeal.Tile

/-! ## The two block functions -/

/-- The weights of a block of two batches: entry `(κ, q, k)` is the weight of row `q` on row `k` in the block's
    batch `κ`. -/
def weightBlock (x0 x1 : Vec Ideal S2x729x64 .f32) (x3 : Vec Ideal S2x729x729 .i32) : S2x729x729.Idx → EReal := fun y =>
  weight (fun q d => x0 (ix3 (y 0) q d)) (fun k d => x1 (ix3 (y 0) k d)) (fun q k => x3 (ix3 (y 0) q k)) (y 1) (y 2)

/-- The mixed values of a block of two batches: entry `(κ, q, d)` sums over the key rows `k` of batch `κ` the weight of
    `q` on `k` times entry `d` of value row `k`. -/
def mixedBlock (x0 x1 x2 : Vec Ideal S2x729x64 .f32) (x3 : Vec Ideal S2x729x729 .i32) : S2x729x64.Idx → EReal := fun y =>
  ∑ k : Fin 729, weight (fun q d => x0 (ix3 (y 0) q d)) (fun k d => x1 (ix3 (y 0) k d)) (fun q k => x3 (ix3 (y 0) q k)) (y 1) k
    * x2 (ix3 (y 0) k (y 2))

/-- The weight depends on its three tiles only through their entries. -/
theorem weight_congr {Qb Qb' Kb Kb' : Fin 729 → Fin 64 → EReal} {Mb Mb' : Fin 729 → Fin 729 → BitVec 32}
    (hQ : ∀ q d, Qb q d = Qb' q d) (hK : ∀ k d, Kb k d = Kb' k d) (hM : ∀ q k, Mb q k = Mb' q k) (q k : Fin 729) :
    weight Qb Kb Mb q k = weight Qb' Kb' Mb' q k := by
  rw [show Qb = Qb' from funext fun q => funext (hQ q), show Kb = Kb' from funext fun k => funext (hK k),
    show Mb = Mb' from funext fun q => funext (hM q)]

/-! ## A slab of a block, read at an index -/

/-- Slab `κ` of a block of rows, read at `(u, q, d)`, is the block at `(κ, q, d)`. -/
theorem slab_rows_apply (x : Vec Ideal S2x729x64 .f32) (off : Fin S2x729x64.rank → Nat) (κ : Fin 2) (h : off = ![κ.val, 0, 0])
    (inb : ∀ a, off a + S1x729x64.size a ≤ S2x729x64.size a) (u : Fin 1) (q : Fin 729) (d : Fin 64) :
    View.ld x (Rect.unit (s := S2x729x64) off S1x729x64.size inb) (ix3 u q d) = x (ix3 κ q d) := by
  subst h
  refine congrArg x (funext fun a => Fin.ext ?_)
  have hu : u.val = 0 := by omega
  match a with
  | ⟨0, _⟩ => show κ.val + 1 * u.val = κ.val; omega
  | ⟨1, _⟩ => show 0 + 1 * q.val = q.val; omega
  | ⟨2, _⟩ => show 0 + 1 * d.val = d.val; omega

/-- Slab `κ` of a block of mask words, read at `(u, q, k)`, is the block at `(κ, q, k)`. -/
theorem slab_words_apply (x : Vec Ideal S2x729x729 .i32) (off : Fin S2x729x729.rank → Nat) (κ : Fin 2) (h : off = ![κ.val, 0, 0])
    (inb : ∀ a, off a + S1x729x729.size a ≤ S2x729x729.size a) (u : Fin 1) (q k : Fin 729) :
    View.ld x (Rect.unit (s := S2x729x729) off S1x729x729.size inb) (ix3 u q k) = x (ix3 κ q k) := by
  subst h
  refine congrArg x (funext fun a => Fin.ext ?_)
  have hu : u.val = 0 := by omega
  match a with
  | ⟨0, _⟩ => show κ.val + 1 * u.val = κ.val; omega
  | ⟨1, _⟩ => show 0 + 1 * q.val = q.val; omega
  | ⟨2, _⟩ => show 0 + 1 * k.val = k.val; omega

/-- Where slab `κ`'s index `(u, q, k)` sits in a `[2, 729, 729]` block: at `(κ, q, k)`. -/
theorem slab_square_emb (off : Fin S2x729x729.rank → Nat) (κ : Fin 2) (h : off = ![κ.val, 0, 0])
    (inb : ∀ a, off a + S1x729x729.size a ≤ S2x729x729.size a) (u : Fin 1) (q k : Fin 729) :
    (Rect.unit (s := S2x729x729) off S1x729x729.size inb).emb (ix3 u q k) = ix3 κ q k := by
  subst h
  refine funext fun a => Fin.ext ?_
  have hu : u.val = 0 := by omega
  match a with
  | ⟨0, _⟩ => show κ.val + 1 * u.val = κ.val; omega
  | ⟨1, _⟩ => show 0 + 1 * q.val = q.val; omega
  | ⟨2, _⟩ => show 0 + 1 * k.val = k.val; omega

/-- Where slab `κ`'s index `(u, q, d)` sits in a `[2, 729, 64]` block: at `(κ, q, d)`. -/
theorem slab_rows_emb (off : Fin S2x729x64.rank → Nat) (κ : Fin 2) (h : off = ![κ.val, 0, 0])
    (inb : ∀ a, off a + S1x729x64.size a ≤ S2x729x64.size a) (u : Fin 1) (q : Fin 729) (d : Fin 64) :
    (Rect.unit (s := S2x729x64) off S1x729x64.size inb).emb (ix3 u q d) = ix3 κ q d := by
  subst h
  refine funext fun a => Fin.ext ?_
  have hu : u.val = 0 := by omega
  match a with
  | ⟨0, _⟩ => show κ.val + 1 * u.val = κ.val; omega
  | ⟨1, _⟩ => show 0 + 1 * q.val = q.val; omega
  | ⟨2, _⟩ => show 0 + 1 * d.val = d.val; omega

/-! ## What one batch's stores hold: the block functions on their slab -/

/-- The weight tile computed from slab `κ` of the input blocks is the block's weight function on slab `κ`. -/
theorem slab_weight (x0 x1 : Vec Ideal S2x729x64 .f32) (x3 : Vec Ideal S2x729x729 .i32) (off1 : Fin S2x729x64.rank → Nat) (off2 : Fin S2x729x729.rank → Nat) (κ : Fin 2)
    (h1 : off1 = ![κ.val, 0, 0]) (h2 : off2 = ![κ.val, 0, 0])
    (inb1 : ∀ a, off1 a + S1x729x64.size a ≤ S2x729x64.size a) (inb2 : ∀ a, off2 a + S1x729x729.size a ≤ S2x729x729.size a)
    (x : S1x729x729.Idx) :
    k0_pay2 (F := Ideal) (View.ld x0 (Rect.unit (s := S2x729x64) off1 S1x729x64.size inb1))
        (View.ld x1 (Rect.unit (s := S2x729x64) off1 S1x729x64.size inb1))
        (View.ld x3 (Rect.unit (s := S2x729x729) off2 S1x729x729.size inb2)) x
      = weightBlock x0 x1 x3 ((Rect.unit (s := S2x729x729) off2 S1x729x729.size inb2).emb x) := by
  obtain ⟨u, q, k, rfl⟩ : ∃ (u : Fin 1) (q k : Fin 729), x = ix3 u q k := ⟨x 0, x 1, x 2, eq_ix3 x⟩
  rw [stored_weight_tile_apply, weight_tile_apply, slab_square_emb off2 κ h2 inb2 u q k]
  exact weight_congr (fun q d => slab_rows_apply x0 off1 κ h1 inb1 0 q d)
    (fun k d => slab_rows_apply x1 off1 κ h1 inb1 0 k d) (fun q k => slab_words_apply x3 off2 κ h2 inb2 0 q k) q k

/-- The mixed-value tile computed from slab `κ` of the input blocks is the block's mixed-value function on slab `κ`. -/
theorem slab_mixed (x0 x1 x2 : Vec Ideal S2x729x64 .f32) (x3 : Vec Ideal S2x729x729 .i32) (off1 : Fin S2x729x64.rank → Nat) (off2 : Fin S2x729x729.rank → Nat) (κ : Fin 2)
    (h1 : off1 = ![κ.val, 0, 0]) (h2 : off2 = ![κ.val, 0, 0])
    (inb1 : ∀ a, off1 a + S1x729x64.size a ≤ S2x729x64.size a) (inb2 : ∀ a, off2 a + S1x729x729.size a ≤ S2x729x729.size a)
    (x : S1x729x64.Idx) :
    k0_pay3 (F := Ideal) (View.ld x0 (Rect.unit (s := S2x729x64) off1 S1x729x64.size inb1))
        (View.ld x1 (Rect.unit (s := S2x729x64) off1 S1x729x64.size inb1))
        (View.ld x2 (Rect.unit (s := S2x729x64) off1 S1x729x64.size inb1))
        (View.ld x3 (Rect.unit (s := S2x729x729) off2 S1x729x729.size inb2)) x
      = mixedBlock x0 x1 x2 x3 ((Rect.unit (s := S2x729x64) off1 S1x729x64.size inb1).emb x) := by
  obtain ⟨u, q, d, rfl⟩ : ∃ (u : Fin 1) (q : Fin 729) (d : Fin 64), x = ix3 u q d := ⟨x 0, x 1, x 2, eq_ix3 x⟩
  rw [stored_mixed_tile_apply, slab_rows_emb off1 κ h1 inb1 u q d]
  unfold mixedBlock
  refine Finset.sum_congr rfl fun k _ => ?_
  rw [weight_tile_apply]
  exact congrArg₂ (· * ·)
    (weight_congr (fun q d => slab_rows_apply x0 off1 κ h1 inb1 0 q d)
      (fun k d => slab_rows_apply x1 off1 κ h1 inb1 0 k d) (fun q k => slab_words_apply x3 off2 κ h2 inb2 0 q k) q k)
    (slab_rows_apply x2 off1 κ h1 inb1 0 k d)

end Cert.KernelIdeal.Blocks

end
-- ==== Proof.Found.lean ====
/-
  The body's run, opened: every store it finds, on either of its two passes, writes the block function on the slab it
  covers; so what the run leaves in each output block is the block function.

  The run goes through the two batches of a block by one pass per batch. Its record of an output block is the list of
  the passes' stores, newest first: pass `κ` contributes one store, through the slab at offsets `(κ, 0, 0)`, of the
  tile computed from slab `κ` of the inputs. Each such store agrees with ONE function of the block index, the stores
  cover the block, and contents assembled from covering stores that all agree with one function are that function.
-/
import proofs.«105056_j40767829574593_2_alg».proof.Proof.Gen.KernelIdeal.Frame
import proofs.«105056_j40767829574593_2_alg».proof.Proof.Blocks
import Idealize.ShloMosaic.Lib.Pipeline.Value

set_option maxRecDepth 16384

noncomputable section

namespace Cert.KernelIdeal.Found

open Cert.KernelIdeal Cert.KernelIdeal.Gen Idealize.ShloMosaic Idealize.ShloMosaic.TcCoe Idealize.SL.Sem
open Idealize.ShloMosaic.ValueIdx MaskedTanhAttention Cert.KernelIdeal.Blocks

variable (c : Dev nD) (i : grid0.Coords) (arg1 : Memref sig .tc .vmem S2x729x64 .f32) (harg1 : arg1.IsWhole) (arg2 : Memref sig .tc .vmem S2x729x64 .f32) (harg2 : arg2.IsWhole) (arg3 : Memref sig .tc .vmem S2x729x64 .f32) (harg3 : arg3.IsWhole) (arg4 : Memref sig .tc .vmem S2x729x729 .i32) (harg4 : arg4.IsWhole) (arg5 : Memref sig .tc .vmem S2x729x64 .f32) (harg5 : arg5.IsWhole) (arg6 : Memref sig .tc .vmem S2x729x729 .f32) (harg6 : arg6.IsWhole)
variable (x0 x1 x2 : Vec Ideal S2x729x64 .f32) (x3 : Vec Ideal S2x729x729 .i32)

/-! ## One pass -/

/-- The store pass `k` makes into the weights' block agrees with the block's weight function. -/
theorem pass_weight_stores (k : Fin k0_t1_loop.trips) :
    ∀ p ∈ (trip_k0_t1 (F := Ideal) Variants.none c none i arg1 harg1 arg2 harg2 arg3 harg3 arg4 harg4 arg5 harg5 arg6 harg6 (harg1.unread x0) (harg2.unread x1) (harg3.unread x2) (harg4.unread x3) k).2.1,
      ∀ x : p.1.shape.Idx, p.2 x = weightBlock x0 x1 x3 (p.1.emb x) := by
  have hk : k.val < 2 := Nat.lt_of_lt_of_le k.isLt k0_t1_abs.2.1
  unfold trip_k0_t1
  dsimp only
  intro p hp x
  obtain rfl := List.mem_singleton.mp hp
  simp only [View.readAt_eq_ld, harg1.read_unread, harg2.read_unread, harg4.read_unread]
  exact slab_weight x0 x1 x3 (k0_off1 k) (k0_off2 k) ⟨k.val, hk⟩ (k0_off1_eq k) (k0_off2_eq k) _ _ x

/-- The store pass `k` makes into the mixed values' block agrees with the block's mixed-value function. -/
theorem pass_mixed_stores (k : Fin k0_t1_loop.trips) :
    ∀ p ∈ (trip_k0_t1 (F := Ideal) Variants.none c none i arg1 harg1 arg2 harg2 arg3 harg3 arg4 harg4 arg5 harg5 arg6 harg6 (harg1.unread x0) (harg2.unread x1) (harg3.unread x2) (harg4.unread x3) k).1,
      ∀ x : p.1.shape.Idx, p.2 x = mixedBlock x0 x1 x2 x3 (p.1.emb x) := by
  have hk : k.val < 2 := Nat.lt_of_lt_of_le k.isLt k0_t1_abs.2.1
  unfold trip_k0_t1
  dsimp only
  intro p hp x
  obtain rfl := List.mem_singleton.mp hp
  simp only [View.readAt_eq_ld, harg1.read_unread, harg2.read_unread, harg3.read_unread, harg4.read_unread]
  exact slab_mixed x0 x1 x2 x3 (k0_off1 k) (k0_off2 k) ⟨k.val, hk⟩ (k0_off1_eq k) (k0_off2_eq k) _ _ x

/-! ## All passes before the `n`-th -/

/-- Every store of the passes before the `n`-th, into either block, agrees with that block's function: by induction
    on `n`, the newest pass by the lemmas above. -/
theorem stores_before : ∀ n : ℕ,
    (∀ p ∈ (pb_k0_t1 (F := Ideal) Variants.none c none i arg1 harg1 arg2 harg2 arg3 harg3 arg4 harg4 arg5 harg5 arg6 harg6 (harg1.unread x0) (harg2.unread x1) (harg3.unread x2) (harg4.unread x3) n).1,
        ∀ x : p.1.shape.Idx, p.2 x = mixedBlock x0 x1 x2 x3 (p.1.emb x))
    ∧ (∀ p ∈ (pb_k0_t1 (F := Ideal) Variants.none c none i arg1 harg1 arg2 harg2 arg3 harg3 arg4 harg4 arg5 harg5 arg6 harg6 (harg1.unread x0) (harg2.unread x1) (harg3.unread x2) (harg4.unread x3) n).2,
        ∀ x : p.1.shape.Idx, p.2 x = weightBlock x0 x1 x3 (p.1.emb x))
  | 0 => by
    rw [pb_k0_t1.eq_1]
    exact ⟨fun p hp => absurd hp List.not_mem_nil, fun p hp => absurd hp List.not_mem_nil⟩
  | n + 1 => by
    obtain ⟨ih1, ih2⟩ := stores_before n
    rw [pb_k0_t1.eq_2]
    unfold pb_k0_t1Step
    split
    · rename_i h
      refine ⟨fun p hp x => ?_, fun p hp x => ?_⟩
      · rcases List.mem_append.mp hp with hp | hp
        · exact pass_mixed_stores c i arg1 harg1 arg2 harg2 arg3 harg3 arg4 harg4 arg5 harg5 arg6 harg6 x0 x1 x2 x3 ⟨n, h⟩ p hp x
        · exact ih1 p hp x
      · rcases List.mem_append.mp hp with hp | hp
        · exact pass_weight_stores c i arg1 harg1 arg2 harg2 arg3 harg3 arg4 harg4 arg5 harg5 arg6 harg6 x0 x1 x2 x3 ⟨n, h⟩ p hp x
        · exact ih2 p hp x
    · exact ⟨ih1, ih2⟩

/-! ## What the run leaves -/

/-- The weights' block after the body: the block's weight function of the input blocks. -/
theorem weights_found :
    out0_A_5 (F := Ideal) c i arg1 harg1 arg2 harg2 arg3 harg3 arg4 harg4 arg5 harg5 arg6 harg6 x0 x1 x2 x3 = weightBlock x0 x1 x3 := by
  unfold out0_A_5
  rw [View.read_writes_eq_canon _ _ _ (cover0_A_5 c i arg1 harg1 arg2 harg2 arg3 harg3 arg4 harg4 arg5 harg5 arg6 harg6 x0 x1 x2 x3)]
  funext y
  refine View.canon_apply_of_pieces (weightBlock x0 x1 x3) _ ?_ y (cover0_A_5 c i arg1 harg1 arg2 harg2 arg3 harg3 arg4 harg4 arg5 harg5 arg6 harg6 x0 x1 x2 x3 y)
  unfold kernelRun0_A
  dsimp only
  exact (stores_before c i arg1 harg1 arg2 harg2 arg3 harg3 arg4 harg4 arg5 harg5 arg6 harg6 x0 x1 x2 x3 _).2

/-- The mixed values' block after the body: the block's mixed-value function of the input blocks. -/
theorem mixed_found :
    out0_A_4 (F := Ideal) c i arg1 harg1 arg2 harg2 arg3 harg3 arg4 harg4 arg5 harg5 arg6 harg6 x0 x1 x2 x3 = mixedBlock x0 x1 x2 x3 := by
  unfold out0_A_4
  rw [View.read_writes_eq_canon _ _ _ (cover0_A_4 c i arg1 harg1 arg2 harg2 arg3 harg3 arg4 harg4 arg5 harg5 arg6 harg6 x0 x1 x2 x3)]
  funext y
  refine View.canon_apply_of_pieces (mixedBlock x0 x1 x2 x3) _ ?_ y (cover0_A_4 c i arg1 harg1 arg2 harg2 arg3 harg3 arg4 harg4 arg5 harg5 arg6 harg6 x0 x1 x2 x3 y)
  unfold kernelRun0_A
  dsimp only
  exact (stores_before c i arg1 harg1 arg2 harg2 arg3 harg3 arg4 harg4 arg5 harg5 arg6 harg6 x0 x1 x2 x3 _).1

end Cert.KernelIdeal.Found

end
-- ==== Proof.Arrays.lean ====
/-
  From blocks to arrays: after the whole grid has run, each output array of the kernel is the specification's array
  of the argument arrays.

  The grid has 32 points; at point `t` every window's block is the pair of batches `2t, 2t + 1` (block index
  `(t, 0, 0)` with blocks of two batches), whole in the other two axes. So the block function of the input blocks
  at point `t`, read at block index `(κ, q, ·)`, is the specification's array of the whole argument arrays read at
  `(2t + κ, q, ·)`: what point `t` writes back is the restriction of ONE array to its block. The 32 blocks tile the
  64 batches, so the final array is that array.
-/
import proofs.«105056_j40767829574593_2_alg».proof.Proof.Gen.KernelIdeal.Value
import proofs.«105056_j40767829574593_2_alg».proof.Proof.Found
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx MaskedTanhAttention Cert.KernelIdeal.Blocks Cert.KernelIdeal.Found

variable (m : (ℓ : Loc nD τ sig) → Buf (Elt Ideal) ℓ) (ρ : Dev nD → PrngReg)

/-! ## The index maps, decided over the grid -/

/-- At every grid point all six windows sit at the same pair of batches and at block `0` of the other two axes. -/
theorem index_facts : ∀ t : Fin cfg0.N,
    win0_0.index t (0 : Fin 3) = win0_5.index t (0 : Fin 3) ∧ win0_1.index t (0 : Fin 3) = win0_5.index t (0 : Fin 3)
    ∧ win0_2.index t (0 : Fin 3) = win0_5.index t (0 : Fin 3) ∧ win0_3.index t (0 : Fin 3) = win0_5.index t (0 : Fin 3)
    ∧ win0_4.index t (0 : Fin 3) = win0_5.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0
    ∧ win0_3.index t (1 : Fin 3) = 0 ∧ win0_3.index t (2 : Fin 3) = 0
    ∧ win0_4.index t (1 : Fin 3) = 0 ∧ win0_4.index t (2 : Fin 3) = 0
    ∧ win0_5.index t (1 : Fin 3) = 0 ∧ win0_5.index t (2 : Fin 3) = 0 :=
  (by decide +kernel : ∀ t : Fin grid0.N, _)

/-- Every pair of batches is some point's. -/
theorem index_onto : ∀ p : Fin 32, ∃ t : Fin cfg0.N, win0_5.index t = ![p.val, 0, 0] ∧ win0_4.index t = ![p.val, 0, 0] :=
  (by decide +kernel : ∀ p : Fin 32, ∃ t : Fin grid0.N, win0_5.index t = ![p.val, 0, 0] ∧ win0_4.index t = ![p.val, 0, 0])

/-! ## What a point writes back is its block of the specification's arrays -/

/-- The weights: point `t` writes back block `t` of the weights of the whole argument arrays. -/
theorem weights_flushed (c : Dev nD) (t : Fin cfg0.N) :
    (dats m 0 c).flushed 5 t
      = ((cfg0.win 5).blk t).view.read (Elt Ideal) (weights (V m c main_arg0) (V m c main_arg1) (V m c main_arg3)) := by
  rw [Cert.KernelIdeal.Value.flushed5_A, weights_found]
  obtain ⟨e0, e1, e2, e3, e4, a01, a02, a11, a12, a21, a22, a31, a32, a41, a42, a51, a52⟩ := index_facts t
  funext j
  show weight (fun q d => iblk m c 0 t (ix3 (j 0) q d)) (fun k d => iblk m c 1 t (ix3 (j 0) k d))
      (fun q k => iblk m c 3 t (ix3 (j 0) q k)) (j 1) (j 2)
    = weight (fun q d => V m c main_arg0 (ix3 ((((cfg0.win 5).blk t).view.emb j) 0) q d))
        (fun k d => V m c main_arg1 (ix3 ((((cfg0.win 5).blk t).view.emb j) 0) k d))
        (fun q k => V m c main_arg3 (ix3 ((((cfg0.win 5).blk t).view.emb j) 0) q k))
        ((((cfg0.win 5).blk t).view.emb j) 1) ((((cfg0.win 5).blk t).view.emb j) 2)
  have h1 : (((cfg0.win 5).blk t).view.emb j) 1 = j 1 := Fin.ext (by
    show win0_5.index t (1 : Fin 3) * 729 + 1 * (j 1).val = (j 1).val; omega)
  have h2 : (((cfg0.win 5).blk t).view.emb j) 2 = j 2 := Fin.ext (by
    show win0_5.index t (2 : Fin 3) * 729 + 1 * (j 2).val = (j 2).val; omega)
  rw [h1, h2]
  refine weight_congr (fun q d => ?_) (fun k d => ?_) (fun q k => ?_) (j 1) (j 2)
  · show V m c main_arg0 (((cfg0.win 0).blk t).view.emb (ix3 (j 0) q d)) = _
    refine congrArg (V m c main_arg0) (funext fun a => Fin.ext ?_)
    match a with
    | ⟨0, _⟩ => show win0_0.index t (0 : Fin 3) * 2 + 1 * (j 0).val = win0_5.index t (0 : Fin 3) * 2 + 1 * (j 0).val; omega
    | ⟨1, _⟩ => show win0_0.index t (1 : Fin 3) * 729 + 1 * q.val = q.val; omega
    | ⟨2, _⟩ => show win0_0.index t (2 : Fin 3) * 64 + 1 * d.val = d.val; omega
  · show V m c main_arg1 (((cfg0.win 1).blk t).view.emb (ix3 (j 0) k d)) = _
    refine congrArg (V m c main_arg1) (funext fun a => Fin.ext ?_)
    match a with
    | ⟨0, _⟩ => show win0_1.index t (0 : Fin 3) * 2 + 1 * (j 0).val = win0_5.index t (0 : Fin 3) * 2 + 1 * (j 0).val; omega
    | ⟨1, _⟩ => show win0_1.index t (1 : Fin 3) * 729 + 1 * k.val = k.val; omega
    | ⟨2, _⟩ => show win0_1.index t (2 : Fin 3) * 64 + 1 * d.val = d.val; omega
  · show V m c main_arg3 (((cfg0.win 3).blk t).view.emb (ix3 (j 0) q k)) = _
    refine congrArg (V m c main_arg3) (funext fun a => Fin.ext ?_)
    match a with
    | ⟨0, _⟩ => show win0_3.index t (0 : Fin 3) * 2 + 1 * (j 0).val = win0_5.index t (0 : Fin 3) * 2 + 1 * (j 0).val; omega
    | ⟨1, _⟩ => show win0_3.index t (1 : Fin 3) * 729 + 1 * q.val = q.val; omega
    | ⟨2, _⟩ => show win0_3.index t (2 : Fin 3) * 729 + 1 * k.val = k.val; omega

/-- The mixed values: point `t` writes back block `t` of the mixed values of the whole argument arrays. -/
theorem mixed_flushed (c : Dev nD) (t : Fin cfg0.N) :
    (dats m 0 c).flushed 4 t
      = ((cfg0.win 4).blk t).view.read (Elt Ideal)
          (mixed (V m c main_arg0) (V m c main_arg1) (V m c main_arg2) (V m c main_arg3)) := by
  rw [Cert.KernelIdeal.Value.flushed4_A, mixed_found]
  obtain ⟨e0, e1, e2, e3, e4, a01, a02, a11, a12, a21, a22, a31, a32, a41, a42, a51, a52⟩ := index_facts t
  funext j
  show (∑ k : Fin 729, weight (fun q d => iblk m c 0 t (ix3 (j 0) q d)) (fun k d => iblk m c 1 t (ix3 (j 0) k d))
        (fun q k => iblk m c 3 t (ix3 (j 0) q k)) (j 1) k * iblk m c 2 t (ix3 (j 0) k (j 2)))
    = ∑ k : Fin 729, weight (fun q d => V m c main_arg0 (ix3 ((((cfg0.win 4).blk t).view.emb j) 0) q d))
        (fun k d => V m c main_arg1 (ix3 ((((cfg0.win 4).blk t).view.emb j) 0) k d))
        (fun q k => V m c main_arg3 (ix3 ((((cfg0.win 4).blk t).view.emb j) 0) q k))
        ((((cfg0.win 4).blk t).view.emb j) 1) k
      * V m c main_arg2 (ix3 ((((cfg0.win 4).blk t).view.emb j) 0) k ((((cfg0.win 4).blk t).view.emb j) 2))
  have h1 : (((cfg0.win 4).blk t).view.emb j) 1 = j 1 := Fin.ext (by
    show win0_4.index t (1 : Fin 3) * 729 + 1 * (j 1).val = (j 1).val; omega)
  have h2 : (((cfg0.win 4).blk t).view.emb j) 2 = j 2 := Fin.ext (by
    show win0_4.index t (2 : Fin 3) * 64 + 1 * (j 2).val = (j 2).val; omega)
  rw [h1, h2]
  refine Finset.sum_congr rfl fun k _ => ?_
  refine congrArg₂ (· * ·) (weight_congr (fun q d => ?_) (fun k d => ?_) (fun q k => ?_) (j 1) k) ?_
  · show V m c main_arg0 (((cfg0.win 0).blk t).view.emb (ix3 (j 0) q d)) = _
    refine congrArg (V m c main_arg0) (funext fun a => Fin.ext ?_)
    match a with
    | ⟨0, _⟩ => show win0_0.index t (0 : Fin 3) * 2 + 1 * (j 0).val = win0_4.index t (0 : Fin 3) * 2 + 1 * (j 0).val; omega
    | ⟨1, _⟩ => show win0_0.index t (1 : Fin 3) * 729 + 1 * q.val = q.val; omega
    | ⟨2, _⟩ => show win0_0.index t (2 : Fin 3) * 64 + 1 * d.val = d.val; omega
  · show V m c main_arg1 (((cfg0.win 1).blk t).view.emb (ix3 (j 0) k d)) = _
    refine congrArg (V m c main_arg1) (funext fun a => Fin.ext ?_)
    match a with
    | ⟨0, _⟩ => show win0_1.index t (0 : Fin 3) * 2 + 1 * (j 0).val = win0_4.index t (0 : Fin 3) * 2 + 1 * (j 0).val; omega
    | ⟨1, _⟩ => show win0_1.index t (1 : Fin 3) * 729 + 1 * k.val = k.val; omega
    | ⟨2, _⟩ => show win0_1.index t (2 : Fin 3) * 64 + 1 * d.val = d.val; omega
  · show V m c main_arg3 (((cfg0.win 3).blk t).view.emb (ix3 (j 0) q k)) = _
    refine congrArg (V m c main_arg3) (funext fun a => Fin.ext ?_)
    match a with
    | ⟨0, _⟩ => show win0_3.index t (0 : Fin 3) * 2 + 1 * (j 0).val = win0_4.index t (0 : Fin 3) * 2 + 1 * (j 0).val; omega
    | ⟨1, _⟩ => show win0_3.index t (1 : Fin 3) * 729 + 1 * q.val = q.val; omega
    | ⟨2, _⟩ => show win0_3.index t (2 : Fin 3) * 729 + 1 * k.val = k.val; omega
  · show V m c main_arg2 (((cfg0.win 2).blk t).view.emb (ix3 (j 0) k (j 2))) = _
    refine congrArg (V m c main_arg2) (funext fun a => Fin.ext ?_)
    match a with
    | ⟨0, _⟩ => show win0_2.index t (0 : Fin 3) * 2 + 1 * (j 0).val = win0_4.index t (0 : Fin 3) * 2 + 1 * (j 0).val; omega
    | ⟨1, _⟩ => show win0_2.index t (1 : Fin 3) * 729 + 1 * k.val = k.val; omega
    | ⟨2, _⟩ => show win0_2.index t (2 : Fin 3) * 64 + 1 * (j 2).val = (j 2).val; omega

/-! ## The blocks tile the arrays -/

/-- An index of the weights' array is in point `t`'s block iff each coordinate is in the block's range on its axis. -/
theorem mem_weights_block (t : Fin cfg0.N) (i : S64x729x729.Idx) :
    i ∈ ((cfg0.win 5).blk t).view.set ↔ ∀ a : Fin 3, win0_5.index t a * S2x729x729.size a ≤ (i a).val
      ∧ (i a).val < win0_5.index t a * S2x729x729.size a + S2x729x729.size a := by
  show i ∈ ((View.whole main_v0_1).slice (win0_5.rect t)).set ↔ _
  rw [View.set_slice_whole, Rect.mem_set_unit]
  exact Iff.rfl

/-- The same for the mixed values' array. -/
theorem mem_mixed_block (t : Fin cfg0.N) (i : S64x729x64.Idx) :
    i ∈ ((cfg0.win 4).blk t).view.set ↔ ∀ a : Fin 3, win0_4.index t a * S2x729x64.size a ≤ (i a).val
      ∧ (i a).val < win0_4.index t a * S2x729x64.size a + S2x729x64.size a := by
  show i ∈ ((View.whole main_v0_0).slice (win0_4.rect t)).set ↔ _
  rw [View.set_slice_whole, Rect.mem_set_unit]
  exact Iff.rfl

/-- Every index of the weights' array lies in the block of the point that owns its pair of batches. -/
theorem weights_covered (i : S64x729x729.Idx) :
    ∃ t : Fin cfg0.N, (cfg0.win 5).flush t = true ∧ i ∈ ((cfg0.win 5).blk t).view.set := by
  have hi0 : (i 0).val < 64 := (i 0).isLt
  have hi1 : (i 1).val < 729 := (i 1).isLt
  have hi2 : (i 2).val < 729 := (i 2).isLt
  obtain ⟨t, ht, -⟩ := index_onto ⟨(i 0).val / 2, by omega⟩
  have q0 : win0_5.index t (0 : Fin 3) = (i 0).val / 2 := congrFun ht 0
  have q1 : win0_5.index t (1 : Fin 3) = 0 := congrFun ht 1
  have q2 : win0_5.index t (2 : Fin 3) = 0 := congrFun ht 2
  refine ⟨t, flush0_5 t, ?_⟩
  rw [mem_weights_block]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 729 ≤ (i 1).val ∧ (i 1).val < win0_5.index t (1 : Fin 3) * 729 + 729; omega
  | ⟨2, _⟩ => show win0_5.index t (2 : Fin 3) * 729 ≤ (i 2).val ∧ (i 2).val < win0_5.index t (2 : Fin 3) * 729 + 729; omega

/-- Every index of the mixed values' array lies in the block of the point that owns its pair of batches. -/
theorem mixed_covered (i : S64x729x64.Idx) :
    ∃ t : Fin cfg0.N, (cfg0.win 4).flush t = true ∧ i ∈ ((cfg0.win 4).blk t).view.set := by
  have hi0 : (i 0).val < 64 := (i 0).isLt
  have hi1 : (i 1).val < 729 := (i 1).isLt
  have hi2 : (i 2).val < 64 := (i 2).isLt
  obtain ⟨t, -, ht⟩ := index_onto ⟨(i 0).val / 2, by omega⟩
  have q0 : win0_4.index t (0 : Fin 3) = (i 0).val / 2 := congrFun ht 0
  have q1 : win0_4.index t (1 : Fin 3) = 0 := congrFun ht 1
  have q2 : win0_4.index t (2 : Fin 3) = 0 := congrFun ht 2
  refine ⟨t, flush0_4 t, ?_⟩
  rw [mem_mixed_block]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 729 ≤ (i 1).val ∧ (i 1).val < win0_4.index t (1 : Fin 3) * 729 + 729; omega
  | ⟨2, _⟩ => show win0_4.index t (2 : Fin 3) * 64 ≤ (i 2).val ∧ (i 2).val < win0_4.index t (2 : Fin 3) * 64 + 64; omega

/-! ## The arrays after the run, and the run -/

/-- The weights' array after the run is the weights of the argument arrays. -/
theorem weights_array (c : Dev nD) :
    (dats m 0 c).arrAt 5 cfg0.N
      = weights (m ((c : Thread nD τ).loc main_arg0)) (m ((c : Thread nD τ).loc main_arg1)) (m ((c : Thread nD τ).loc main_arg3)) :=
  (dats m 0 c).arrAt_eq_of_cover 5 _ (fun t _ => weights_flushed m c t) weights_covered

/-- The mixed values' array after the run is the mixed values of the argument arrays. -/
theorem mixed_array (c : Dev nD) :
    (dats m 0 c).arrAt 4 cfg0.N
      = mixed (m ((c : Thread nD τ).loc main_arg0)) (m ((c : Thread nD τ).loc main_arg1)) (m ((c : Thread nD τ).loc main_arg2))
          (m ((c : Thread nD τ).loc main_arg3)) :=
  (dats m 0 c).arrAt_eq_of_cover 4 _ (fun t _ => mixed_flushed m c t) mixed_covered

/-- THE KERNEL'S RUN: every weakly fair execution terminates with the first result at the mixed values and the second
    at the weights of the argument arrays, the arguments unchanged. -/
theorem run : θ_run defs (onTc (τ := τ) (main (F := Ideal))) ⟨m, fun _ => 0, ρ⟩ fun r => ∀ c : Dev nD,
      r.2.mem ((c : Thread nD τ).loc main_v0_0)
        = mixed (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (mixed_array m c), (h c).2.1.trans (weights_array m c), (h c).2.2⟩)
    (Cert.KernelIdeal.Value.run_blocks m ρ)

end Cert.KernelIdeal.Arrays

end
-- ==== Proof.Reference.lean ====
/-
  The reference program computes the specification.

  The reference's run, read one operation at a time, ends in two arrays. This module shows that they are the two
  arrays of the specification: the weights, and the value rows mixed with the weights.

  At the entry `(b, q, k)` the reference forms the inner product of query row `q` and key row `k` of batch `b`,
  divides it by `8`, replaces it by the fill value where the mask word is `0`, takes the hyperbolic tangent, and
  multiplies by `1 - [q = k]`. The last factor lives in a `729 × 729` table that does not depend on the batch: it
  is read through two re-indexings that drop the batch coordinate and keep `(q, k)`. Once every operation is
  read at its index and the index functions are identified with plain coordinates, the entry is literally the
  quotient spelling of the weight, and the algebra lemma of the specification finishes. The second array is the
  sum over key rows of these entries times the value rows, which is the specification's mixture term by term.
-/
import proofs.«105056_j40767829574593_2_alg».proof.Proof.Gen.ReferenceIdeal.Read
import proofs.«105056_j40767829574593_2_alg».proof.Proof.Weights

noncomputable section

namespace Cert.ReferenceIdeal.Bridge

open Cert.ReferenceIdeal Cert.ReferenceIdeal.Gen Cert.ReferenceIdeal.Read
open Idealize.ShloMosaic Idealize.ShloMosaic.ValueIdx
open MaskedTanhAttention

/-! ## The index functions are coordinates -/

/-- In the first inner product, the left operand at output entry `(b, q, k)` and summation position `d` is read at
    `(b, q, d)`. -/
theorem left_of_scores (b : Fin 64) (q k : Fin 729) (d : Fin 64) :
    lidx_main_v0 (ix3 b q k) d = ix3 b q d :=
  funext fun a => Fin.ext (by match a with | ⟨0, _⟩ => rfl | ⟨1, _⟩ => rfl | ⟨2, _⟩ => rfl)

/-- In the first inner product, the right operand at output entry `(b, q, k)` and summation position `d` is read at
    `(b, k, d)`. -/
theorem right_of_scores (b : Fin 64) (q k : Fin 729) (d : Fin 64) :
    ridx_main_v0 (ix3 b q k) d = ix3 b k d :=
  funext fun a => Fin.ext (by match a with | ⟨0, _⟩ => rfl | ⟨1, _⟩ => rfl | ⟨2, _⟩ => rfl)

/-- The two re-indexings of the diagonal table, composed, send `(b, q, k)` to `(q, k)`: the batch is forgotten. -/
theorem table_of_entry (b : Fin 64) (q k : Fin 729) :
    idx_main_v15 (idx_main_v16 (ix3 b q k)) = ix2 q k :=
  funext fun a => Fin.ext (by match a with | ⟨0, _⟩ => rfl | ⟨1, _⟩ => rfl)

/-- In the second inner product, the left operand at output entry `(b, q, d)` and summation position `k` is read at
    `(b, q, k)`. -/
theorem left_of_mixture (b : Fin 64) (q : Fin 729) (d : Fin 64) (k : Fin 729) :
    lidx_main_v18 (ix3 b q d) k = ix3 b q k :=
  funext fun a => Fin.ext (by match a with | ⟨0, _⟩ => rfl | ⟨1, _⟩ => rfl | ⟨2, _⟩ => rfl)

/-- In the second inner product, the right operand at output entry `(b, q, d)` and summation position `k` is read at
    `(b, k, d)`. -/
theorem right_of_mixture (b : Fin 64) (q : Fin 729) (d : Fin 64) (k : Fin 729) :
    ridx_main_v18 (ix3 b q d) k = ix3 b k d :=
  funext fun a => Fin.ext (by match a with | ⟨0, _⟩ => rfl | ⟨1, _⟩ => rfl | ⟨2, _⟩ => rfl)

/-! ## The two results -/

/-- THE WEIGHTS. The reference's product of the hyperbolic tangent of the masked, divided inner product with the
    factor `1 - [q = k]` is, entry by entry, the weight of the specification. -/
theorem weights_eq (x0 x1 : Rows) (x3 : Words) :
    val_main_v17 (F := Ideal) x0 x1 x3 = weights x0 x1 x3 := by
  funext j
  obtain ⟨b, q, k, rfl⟩ : ∃ (b : Fin 64) (q k : Fin 729), j = ix3 b q k := ⟨j 0, j 1, j 2, eq_ix3 j⟩
  rw [val_main_v17_apply, val_main_v6_apply, val_main_v5_apply, val_main_v4_apply, val_main_v3_apply,
    val_main_c_apply, val_main_call0_v0_apply, val_main_cst_0_apply, val_main_v2_apply, val_main_v0_apply,
    val_main_v1_apply, val_main_cst_apply, val_main_v16_apply, val_main_v15_apply, val_main_v14_apply,
    val_main_v13_apply, val_main_cst_2_apply, val_main_v12_apply, val_main_v11_apply, val_main_v10_apply,
    val_main_v7_apply, val_main_v9_apply, val_main_c_1_apply, val_main_v8_apply, table_of_entry]
  simp only [left_of_scores, right_of_scores]
  exact weight_of_quotient_form (fun q d => x0 (ix3 b q d)) (fun k d => x1 (ix3 b k d))
    (fun q k => x3 (ix3 b q k)) q k

/-- THE MIXED VALUES. The reference's second inner product, the weights against the value rows summed over the key
    rows, is the mixture of the specification. -/
theorem mixed_eq (x0 x1 x2 : Rows) (x3 : Words) :
    val_main_v18 (F := Ideal) x0 x1 x2 x3 = mixed x0 x1 x2 x3 := by
  funext j
  obtain ⟨b, q, d, rfl⟩ : ∃ (b : Fin 64) (q : Fin 729) (d : Fin 64), j = ix3 b q d := ⟨j 0, j 1, j 2, eq_ix3 j⟩
  rw [val_main_v18_apply, weights_eq]
  refine Finset.sum_congr rfl fun k _ => ?_
  rw [left_of_mixture, right_of_mixture]
  rfl

end Cert.ReferenceIdeal.Bridge

end
-- ==== Proof.lean ====
/-
  Tanh attention with a mask and a zeroed diagonal: the kernel and its reference compute the same two arrays over the
  extended reals.

  Inputs: queries, keys and values, each 64 batches of 729 rows of 64 entries, and a mask of 64 × 729 × 729 words.
  Results: the weights (64 × 729 × 729) and the values mixed by them (64 × 729 × 64). Within a batch the weight of
  query row `q` on key row `k` is `0` for `q = k` and otherwise `tanh` of the score, where the score is the fill
  value `-10⁹` if the mask word is `0` and else the inner product of the two rows scaled by `1/8`.

  The kernel takes the batches two at a time over a grid of 32 points, scales the query entries by `0.125` before
  the product and overwrites the diagonal by a select; the reference forms all batches at once, divides the product
  by `8.0` and multiplies by `1 - [q = k]`. Over the extended reals the two spellings are one function of the inputs
  (Proof/Weights.lean: `0.125` is exactly `1/8`, a nonnegative finite factor distributes over any sum, a product with
  `0` is `0`, and the fill word is the same on both sides), so the equality holds for every input: the finiteness
  precondition is not used. The kernel's side is assembled from one batch (Proof/Tile.lean), one grid point
  (Proof/Blocks.lean, Proof/Found.lean) and the whole grid (Proof/Arrays.lean); the reference's side is
  Proof/Reference.lean. The idealized kernel is the kernel's own text read over the extended reals (no rewrite was
  made), so that conjunct is trivially true; the three frame conjuncts are the generated frames and the reference's
  run with its results dropped.
-/
import proofs.«105056_j40767829574593_2_alg».proof.Defs
import proofs.«105056_j40767829574593_2_alg».proof.Proof.Gen.Kernel
import proofs.«105056_j40767829574593_2_alg».proof.Proof.Gen.Kernel.Skeleton
import proofs.«105056_j40767829574593_2_alg».proof.Proof.Gen.Kernel.Loops
import proofs.«105056_j40767829574593_2_alg».proof.Proof.Gen.Kernel.Launch
import proofs.«105056_j40767829574593_2_alg».proof.Proof.Gen.Kernel.Points
import proofs.«105056_j40767829574593_2_alg».proof.Proof.Gen.Kernel.Frame
import proofs.«105056_j40767829574593_2_alg».proof.Proof.Gen.KernelIdeal
import proofs.«105056_j40767829574593_2_alg».proof.Proof.Gen.KernelIdeal.Skeleton
import proofs.«105056_j40767829574593_2_alg».proof.Proof.Gen.KernelIdeal.Loops
import proofs.«105056_j40767829574593_2_alg».proof.Proof.Gen.KernelIdeal.Launch
import proofs.«105056_j40767829574593_2_alg».proof.Proof.Gen.KernelIdeal.Points
import proofs.«105056_j40767829574593_2_alg».proof.Proof.Gen.KernelIdeal.Frame
import proofs.«105056_j40767829574593_2_alg».proof.Proof.Gen.KernelIdeal.Value
import proofs.«105056_j40767829574593_2_alg».proof.Proof.Gen.ReferenceIdeal
import proofs.«105056_j40767829574593_2_alg».proof.Proof.Gen.ReferenceIdeal.Run
import proofs.«105056_j40767829574593_2_alg».proof.Proof.Gen.ReferenceIdeal.Read
import proofs.«105056_j40767829574593_2_alg».proof.Proof.Gen.Pre_finite_inputs
import proofs.«105056_j40767829574593_2_alg».proof.Proof.Arrays
import proofs.«105056_j40767829574593_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading over the extended reals. -/
theorem preserves : Cert.preserves_Kernel_KernelIdeal := trivial

/-- From memories that agree on the four arguments, both programs end with the mixed values and the weights of those
    arguments: the kernel by its run over the grid, the reference by its run read one operation at a time. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.ReferenceIdeal.Bridge.mixed_eq,
      (hagree c).1, (hagree c).2.1, (hagree c).2.2.1, (hagree c).2.2.2]
  · rw [(h c).2.1, Cert.ReferenceIdeal.Read.val_main_v17_eq, Cert.ReferenceIdeal.Bridge.weights_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
